-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x1_S1x8192_1_0 : S8192x1.Transposes [1, 0] S1x8192
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  reduces_S1024x64_S1024 : S1024x64.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.RbfPayload.lean ====
/-
  The tiled program's body at one entry of its output block.  The body receives a block of 1024 rows of x, a block of
  1024 rows of y and the matching 1024 squared norms of y (already computed outside as a row [1, 1024]).  Entry (p, q)
  of what it stores depends on row p of the x block, row q of the y block and entry q of the norm row only:

    the product block at (p, q) is the contraction over the 64 coordinates of (2 x)[p, k] and y[q, k]
      (the product into a zero accumulator; the change of format before it is the identity on extended reals);
    the squared norm of row p of x is the sum over the 64 coordinates, kept as a column and spread over the block;
    the norm row is spread over the block along the other axis;

  and the entry is  exp (min ((product - 1 * norm_x) - norm_y) 0).
-/
import proofs.«113830_j65481071407813_2_alg».proof.Proof.Gen.KernelIdeal.Skeleton
import proofs.«113830_j65481071407813_2_alg».proof.Proof.LibKeepdims
import Idealize.ShloMosaic.Lib.ValueLayout
import Idealize.ShloMosaic.PureOps.Ideal.Laws

noncomputable section

namespace Cert.Rbf

open Cert.KernelIdeal Cert.KernelIdeal.Gen Idealize.ShloMosaic Idealize.ShloMosaic.ValueIdx

/-- The sum over the second axis of a [1024, 64] block, at row p, is the sum of the 64 entries of that row. -/
theorem row_sum (v : FVec Ideal S1024x64 .f32) (h : S1024x64.Reduces [1] S1024) (hφ : FKind.Formats .f32)
    (hacc : (0x00000000#32 : BitVec 32) = 0x00000000#32) (p : Fin 1024) :
    multiReduction .add [1] S1024 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v ?_
  funext d
  apply Fin.ext
  match d with
  | ⟨0, _⟩ => rfl
  | ⟨1, _⟩ => rfl

abbrev blockDot := dot_S1024x64_S1024x64_S1024x1024_1_1_0_0_n_n

theorem blockDot_lhs0 (i : S1024x1024.Idx) (c : blockDot.contr.Idx) : (blockDot.lhsIdx i c 0).val = (i 0).val := by
  unfold DotDims.lhsIdx
  rw [dif_neg (show ¬(0 : Fin S1024x64.rank) ∈ blockDot.lhsBatch by decide),
    dif_pos (show (0 : Fin S1024x64.rank) ∈ blockDot.lhsNonContracting by decide)]
  rfl

theorem blockDot_lhs1 (i : S1024x1024.Idx) (c : blockDot.contr.Idx) :
    (blockDot.lhsIdx i c 1).val = (c ⟨0, by decide⟩).val :=
  blockDot.lhsIdx_val_of_single rfl i c

theorem blockDot_rhs0 (i : S1024x1024.Idx) (c : blockDot.contr.Idx) : (blockDot.rhsIdx i c 0).val = (i 1).val := by
  unfold DotDims.rhsIdx
  rw [dif_neg (show ¬(0 : Fin S1024x64.rank) ∈ blockDot.rhsBatch by decide),
    dif_pos (show (0 : Fin S1024x64.rank) ∈ blockDot.rhsNonContracting by decide)]
  rfl

theorem blockDot_rhs1 (i : S1024x1024.Idx) (c : blockDot.contr.Idx) :
    (blockDot.rhsIdx i c 1).val = (c ⟨0, by decide⟩).val :=
  blockDot.rhsIdx_val_of_single rfl i c

/-- The product of two [1024, 64] blocks contracted over their second axes, into a zero accumulator, at (p, q): the
    sum over the 64 coordinates of the left block's row p times the right block's row q. -/
theorem block_product (l r : FVec Ideal S1024x64 .bf16) (p q : Fin 1024) :
    matmul blockDot none l r (constant S1024x1024 .f32 0x00000000#32) (ix2 p q)
      = ∑ k : Fin 64, l (ix2 p k) * r (ix2 q k) := by
  simp only [matmul]
  rw [Ideal.matmul_constant_zero_apply, ← Equiv.sum_comp (contrEquiv1 blockDot 64 rfl rfl).symm]
  refine Finset.sum_congr rfl fun k _ => ?_
  have hk := contrEquiv1_symm_val blockDot 64 rfl rfl k
  have el : blockDot.lhsIdx (ix2 p q) ((contrEquiv1 blockDot 64 rfl rfl).symm k) = ix2 p k :=
    funext fun a => Fin.ext (by
      match a with
      | ⟨0, _⟩ => exact blockDot_lhs0 _ _
      | ⟨1, _⟩ => exact (blockDot_lhs1 _ _).trans hk)
  have er : blockDot.rhsIdx (ix2 p q) ((contrEquiv1 blockDot 64 rfl rfl).symm k) = ix2 q k :=
    funext fun a => Fin.ext (by
      match a with
      | ⟨0, _⟩ => exact blockDot_rhs0 _ _
      | ⟨1, _⟩ => exact (blockDot_rhs1 _ _).trans hk)
  rw [el, er]

/-- Entry (p, q) of the block the body stores, from the three blocks it loads. -/
theorem payload_entry (x0 x1 : Vec Ideal S1024x64 .f32) (x2 : Vec Ideal S1x1024 .f32) (p q : Fin 1024) :
    k0_pay1 (F := Ideal) x0 x1 x2 (ix2 p q)
      = Ideal.exp (min
          (((∑ k : Fin 64, (Ideal.ofBits .f32 0x40000000#32 * x0 (ix2 p k)) * x1 (ix2 q k))
              - Ideal.ofBits .f32 0x3F800000#32 * (∑ k : Fin 64, x0 (ix2 p k) * x0 (ix2 p k)))
            - x2 (ix2 (0 : Fin 1) q))
          (Ideal.ofBits .f32 0x00000000#32)) := by
  unfold k0_pay1
  simp only [exp, minimumf, subf, block_product, broadcastTo_a1_ab_apply, broadcastTo_1b_ab_apply, shapeCast_self,
    mulf, shapeCast_a_a1_apply, row_sum, broadcast, truncf, Ideal.exp_def, Ideal.minimumf_def, Ideal.subf_def,
    Ideal.mulf_def, Ideal.truncf_def, Ideal.ofBits_def]
  rw [row_sum]
  rfl

end Cert.Rbf

end
-- ==== Proof.RbfHostNorm.lean ====
/-
  The squared norms of the rows of y, as the tiled program prepares them before its grid runs: the sum over the 64
  coordinates of y[a, k]^2 from a zero initial value, kept as a column [8192, 1], multiplied by the constant 1, and
  transposed to a row [1, 8192].  Read at (0, a) the row holds  1 * (0 + Σ_k y[a, k] * y[a, k]).
-/
import proofs.«113830_j65481071407813_2_alg».proof.Proof.Gen.KernelIdeal
import Idealize.ShloMosaic.Lib.ValueLayout
import Idealize.ShloMosaic.Lib.IdealHost
import Idealize.ShloMosaic.Lib.Pipeline.Value

noncomputable section

namespace Cert.Rbf

open Cert.KernelIdeal Cert.KernelIdeal.Gen Idealize.ShloMosaic Idealize.ShloMosaic.ValueIdx

/-- The row of squared norms as one function of the array y. -/
def normRow (y : FVec Ideal S8192x64 .f32) : FVec Ideal S1x8192 .f32 :=
  transpose S1x8192 [1, 0]
    (mulf (broadcastInDim S8192x1 ![] bcast_S_S8192x1 (constant (F := Ideal) S_ .f32 0x3F800000#32))
      (broadcastInDim S8192x1 ![0] bcast_S8192_S8192x1_0
        (Host.reduceAdd (F := Ideal) (mulf y y) (constant (F := Ideal) S_ .f32 0x00000000#32)
          reducesTo_S8192x64_S8192_d1 h_S_)))
    transposes_S8192x1_S1x8192_1_0

/-- The host's sum over the second axis of a [8192, 64] array from an initial value, at row a. -/
theorem host_row_sum (v : FVec Ideal S8192x64 .f32) (init : FVec Ideal S_ .f32) (a : Fin 8192) :
    Host.reduceAdd (F := Ideal) v init reducesTo_S8192x64_S8192_d1 h_S_ (ix1 a)
      = init (Shape.Idx.first h_S_) + ∑ k : Fin 64, v (ix2 a k) := by
  simp only [Host.reduceAdd, Ideal.hostReduceAdd_def]
  rw [Ideal.hostReduceAdd_single reducesTo_S8192x64_S8192_d1 (by decide)]
  refine congrArg (_ + ·) (Finset.sum_congr rfl fun k _ => ?_)
  exact congrArg v (funext fun d => Fin.ext (by match d with | ⟨0, _⟩ => rfl | ⟨1, _⟩ => rfl))

/-- Entry (0, a) of the row of squared norms. -/
theorem normRow_apply (y : FVec Ideal S8192x64 .f32) (a : Fin 8192) :
    normRow y (ix2 (0 : Fin 1) a)
      = Ideal.ofBits .f32 0x3F800000#32
          * (Ideal.ofBits .f32 0x00000000#32 + ∑ k : Fin 64, y (ix2 a k) * y (ix2 a k)) := by
  unfold normRow
  rw [transpose_ix2_apply, mulf_apply, broadcastInDim_scalar_apply,
    broadcastInDim_apply ![0] bcast_S8192_S8192x1_0 _ (ix2 a (0 : Fin 1)) (ix1 a) (fun d => match d with
      | ⟨0, _⟩ => by show a.val = if (8192 : Nat) = 1 then 0 else a.val; rw [if_neg (by decide)]),
    host_row_sum]
  rfl

end Cert.Rbf

end
-- ==== Proof.RbfAlgebra.lean ====
/-
  The radial basis function kernel  K[b, a] = exp (-|x_b - y_a|^2)  is computed by the two programs through two
  arrangements of the same expansion  |x - y|^2 = |x|^2 + |y|^2 - 2 x.y .  For one pair of rows  f = x_b,  g = y_a
  (64 coordinates each) write  S = Σ f_k g_k,  X = Σ f_k^2,  Y = Σ g_k^2.  One program evaluates

      exp (min ((Σ (2 f_k) g_k - 1·X) - 1·(0 + Y)) 0)

  (the factor 2 folded into the left operand of the product, the sign folded into the subtractions, the clamp a
  minimum with zero), the other

      exp (-1 · max (((0 + X) + (0 + Y)) - 2·S) 0).

  Over the reals  Σ (2 f_k) g_k = 2 S  by distributivity, and  min a 0 = - max (-a) 0,  so the two agree.  On the
  extended reals distributivity fails at the infinities, so the law is stated for rows of real numbers: finiteness of
  the inputs is what the equality uses.  The float constants are kept as their bit patterns and read once, here.
-/
import Idealize.ShloMosaic.PureOps.Ideal.Laws
import Idealize.ShloMosaic.Lib.IdealHost

noncomputable section

namespace Cert.Rbf

open Idealize.ShloMosaic

/-- The pattern of 2.0 denotes the real number two. -/
theorem ofBits_two : Ideal.ofBits .f32 0x40000000#32 = ((2 : ℝ) : EReal) := by
  simp [Ideal.ofBits, Ideal.ieee, -EReal.coe_mul]; norm_num

/-- The pattern of -1.0 denotes the real number minus one. -/
theorem ofBits_neg_one : Ideal.ofBits .f32 0xBF800000#32 = ((-1 : ℝ) : EReal) := by
  simp [Ideal.ofBits, Ideal.ieee, -EReal.coe_mul, -EReal.coe_neg]; norm_num

/-- The pattern of 1.0 denotes the real number one. -/
theorem ofBits_one : Ideal.ofBits .f32 0x3F800000#32 = ((1 : ℝ) : EReal) := by
  rw [Ideal.ofBits_one_f32]; norm_cast

/-- The pattern of 0.0 denotes the real number zero. -/
theorem ofBits_zero : Ideal.ofBits .f32 0x00000000#32 = ((0 : ℝ) : EReal) := by
  rw [Ideal.ofBits_zero_f32]; norm_cast

/-- The inclusion of the reals in the extended reals carries a finite sum to the sum of the inclusions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {ι : Type} [Fintype ι]

/-- One entry as the tiled program computes it from the two rows: the doubled product, minus each squared norm,
    clamped above by zero, exponentiated. -/
def tiledEntry (f g : ι → EReal) : EReal :=
  Ideal.exp (min
    (((∑ k, (Ideal.ofBits .f32 0x40000000#32 * f k) * g k)
        - Ideal.ofBits .f32 0x3F800000#32 * (∑ k, f k * f k))
      - Ideal.ofBits .f32 0x3F800000#32 * (Ideal.ofBits .f32 0x00000000#32 + ∑ k, g k * g k))
    (Ideal.ofBits .f32 0x00000000#32))

/-- One entry as the whole-array program computes it: the squared distance by its expansion, clamped below by zero,
    negated, exponentiated. -/
def wholeEntry (f g : ι → EReal) : EReal :=
  Ideal.exp (Ideal.ofBits .f32 0xBF800000#32 * max
    (((Ideal.ofBits .f32 0x00000000#32 + ∑ k, f k * f k) + (Ideal.ofBits .f32 0x00000000#32 + ∑ k, g k * g k))
      - Ideal.ofBits .f32 0x40000000#32 * (∑ k, f k * g k))
    (Ideal.ofBits .f32 0x00000000#32))

/-- The real-number identity behind the two arrangements. -/
theorem real_law (f g : ι → ℝ) :
    min (((∑ k, (2 * f k) * g k) - 1 * (∑ k, f k * f k)) - 1 * (0 + ∑ k, g k * g k)) 0
      = -1 * max (((0 + ∑ k, f k * f k) + (0 + ∑ k, g k * g k)) - 2 * (∑ k, f k * g k)) 0 := by
  have h2 : (∑ k, (2 * f k) * g k) = 2 * ∑ k, f k * g k := by
    rw [Finset.mul_sum]; exact Finset.sum_congr rfl fun k _ => by ring
  rw [h2, neg_one_mul, ← min_neg_neg, neg_zero]
  congr 1
  ring

/-- On rows of real numbers the two arrangements give the same entry. -/
theorem tiledEntry_eq_wholeEntry (f g : ι → ℝ) :
    tiledEntry (fun k => (f k : EReal)) (fun k => (g k : EReal))
      = wholeEntry (fun k => (f k : EReal)) (fun k => (g k : EReal)) := by
  unfold tiledEntry wholeEntry
  rw [ofBits_two, ofBits_one, ofBits_zero, ofBits_neg_one]
  simp only [← EReal.coe_mul, ← coe_sum, ← EReal.coe_add, ← EReal.coe_sub]
  rw [← EReal.coe_strictMono.monotone.map_min, ← EReal.coe_strictMono.monotone.map_max, ← EReal.coe_mul,
    real_law]

end Cert.Rbf

end
-- ==== Proof.RbfPoint.lean ====
/-
  The tiled program's whole output as one function of the two argument arrays, and one grid point's block as a
  restriction of it.  The output is cut into 8 x 8 blocks of 1024 x 1024 entries; at block (bi, bj) the body sees rows
  1024 bi + p of x, rows 1024 bj + q of y, and the squared norms of those rows of y.  Entry (p, q) of what it stores
  is then the tiled arrangement on row 1024 bi + p of x and row 1024 bj + q of y: entry (1024 bi + p, 1024 bj + q) of
  the whole output.
-/
import proofs.«113830_j65481071407813_2_alg».proof.Proof.RbfPayload
import proofs.«113830_j65481071407813_2_alg».proof.Proof.RbfHostNorm
import proofs.«113830_j65481071407813_2_alg».proof.Proof.RbfAlgebra

noncomputable section

namespace Cert.Rbf

open Cert.KernelIdeal Cert.KernelIdeal.Gen Idealize.ShloMosaic Idealize.ShloMosaic.ValueIdx

/-- Entry (b, a) of the output: the tiled arrangement on row b of x and row a of y. -/
def tiledAt (x y : FVec Ideal S8192x64 .f32) (b a : Fin 8192) : EReal :=
  tiledEntry (fun k : Fin 64 => x (ix2 b k)) (fun k : Fin 64 => y (ix2 a k))

/-- The whole output array as one function of the argument arrays. -/
def tiled (x y : FVec Ideal S8192x64 .f32) : FVec Ideal S8192x8192 .f32 := fun i => tiledAt x y (i 0) (i 1)

theorem tiled_ix2 (x y : FVec Ideal S8192x64 .f32) (b a : Fin 8192) : tiled x y (ix2 b a) = tiledAt x y b a := rfl

/-- A block of the output at block index (bi, bj), from blocks that are the restrictions of x, y and the norm row
    there. -/
theorem point_entry (x y : FVec Ideal S8192x64 .f32) (n : FVec Ideal S1x8192 .f32)
    (hn : ∀ a : Fin 8192, n (ix2 (0 : Fin 1) a) = normRow y (ix2 (0 : Fin 1) a))
    (x0 x1 : Vec Ideal S1024x64 .f32) (x2 : Vec Ideal S1x1024 .f32) (bi bj : Nat) (hbi : bi ≤ 7) (hbj : bj ≤ 7)
    (h0 : ∀ (p : Fin 1024) (k : Fin 64), x0 (ix2 p k) = x (ix2 (⟨bi * 1024 + p.val, by omega⟩ : Fin 8192) k))
    (h1 : ∀ (q : Fin 1024) (k : Fin 64), x1 (ix2 q k) = y (ix2 (⟨bj * 1024 + q.val, by omega⟩ : Fin 8192) k))
    (h2 : ∀ q : Fin 1024, x2 (ix2 (0 : Fin 1) q) = n (ix2 (0 : Fin 1) (⟨bj * 1024 + q.val, by omega⟩ : Fin 8192)))
    (p q : Fin 1024) :
    k0_pay1 (F := Ideal) x0 x1 x2 (ix2 p q)
      = tiledAt x y (⟨bi * 1024 + p.val, by omega⟩ : Fin 8192) (⟨bj * 1024 + q.val, by omega⟩ : Fin 8192) := by
  rw [payload_entry, h2, hn, normRow_apply]
  simp only [h0, h1]
  rfl

end Cert.Rbf

end
-- ==== Proof.RbfArray.lean ====
/-
  From blocks to the whole output.  Each of the 64 grid points (bi, bj) stages block bi of x (rows 1024 bi ..), block
  bj of y and block bj of the row of squared norms of y, and writes back block (bi, bj) of the output.  The block
  written is the restriction of the one whole-array function  tiled x y  to that block (the per-point lemma); the 64
  blocks tile the 8192 x 8192 output (entry (r, s) lies in the block of point (r / 1024, s / 1024)); so after the run
  the output array is  tiled x y.
-/
import proofs.«113830_j65481071407813_2_alg».proof.Proof.Gen.KernelIdeal.Value
import proofs.«113830_j65481071407813_2_alg».proof.Proof.RbfPoint
import Idealize.ShloMosaic.Lib.StableHlo.Run

set_option maxRecDepth 16384

noncomputable section

namespace Cert.Rbf

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- When the grid starts, the third operand's array is the row of squared norms of the second argument. -/
theorem entry_norm (c : Dev nD) :
    (V m c main_v5 : S1x8192.Idx → EReal) = normRow (m ((c : Thread nD τ).loc main_arg1)) := by
  dsimp only [V, hostOps0]; after_results; rfl

/-- The index maps over the grid: the x block moves with the output's row block, the y block and the norm block with
    the output's column block, and both block indices stay below 8. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block of the output is some grid point's. -/
theorem index_onto : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- What grid point t writes back is block t of the whole-array function. -/
theorem flushed_eq (c : Dev nD) (t : Fin cfg0.N) :
    (dats m 0 c).flushed 3 t
      = ((cfg0.win 3).blk t).view.read (Elt Ideal)
          (tiled (m ((c : Thread nD τ).loc main_arg0)) (m ((c : Thread nD τ).loc main_arg1))) := by
  rw [Cert.KernelIdeal.Value.flushed3]
  unfold out0_3
  rw [View.canon_unit_zero zero_offsets]
  simp only [View.ld_unit_zero (S := S1024x64) zero_offsets, View.ld_unit_zero (S := S1x1024) zero_offsets]
  obtain ⟨e00, e01, e10, e11, e20, e21, b0, b1⟩ := index_facts t
  funext j
  obtain ⟨p, q, rfl⟩ : ∃ (p q : Fin 1024), j = ix2 p q :=
    ⟨(j 0 : Fin 1024), (j 1 : Fin 1024), eq_ix2 (n0 := 1024) (n1 := 1024) j⟩
  show k0_pay1 (F := Ideal) (iblk m c 0 t) (iblk m c 1 t) (iblk m c 2 t) (ix2 p q)
    = tiled (m ((c : Thread nD τ).loc main_arg0)) (m ((c : Thread nD τ).loc main_arg1))
        (((cfg0.win 3).blk t).view.emb (ix2 p q))
  have hemb : ((cfg0.win 3).blk t).view.emb (ix2 p q)
      = ix2 (⟨win0_3.index t (0 : Fin 2) * 1024 + p.val, by omega⟩ : Fin 8192)
          (⟨win0_3.index t (1 : Fin 2) * 1024 + q.val, by omega⟩ : Fin 8192) := by
    funext a
    apply Fin.ext
    match a with
    | ⟨0, _⟩ =>
      show win0_3.index t (0 : Fin 2) * 1024 + 1 * p.val = win0_3.index t (0 : Fin 2) * 1024 + p.val
      omega
    | ⟨1, _⟩ =>
      show win0_3.index t (1 : Fin 2) * 1024 + 1 * q.val = win0_3.index t (1 : Fin 2) * 1024 + q.val
      omega
  rw [hemb, tiled_ix2]
  refine point_entry (m ((c : Thread nD τ).loc main_arg0)) (m ((c : Thread nD τ).loc main_arg1)) (V m c main_v5)
    (fun a => by rw [entry_norm]) (iblk m c 0 t) (iblk m c 1 t) (iblk m c 2 t)
    (win0_3.index t (0 : Fin 2)) (win0_3.index t (1 : Fin 2)) b0 b1 ?_ ?_ ?_ p q
  · intro p k
    show V m c main_arg0 (((cfg0.win 0).blk t).view.emb (ix2 p k)) = _
    rw [V_main_arg0]
    refine congrArg _ (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 64 + 1 * k.val = k.val; omega
  · intro q k
    show V m c main_arg1 (((cfg0.win 1).blk t).view.emb (ix2 q k)) = _
    rw [V_main_arg1]
    refine congrArg _ (funext fun a => Fin.ext ?_)
    match a with
    | ⟨0, _⟩ => show win0_1.index t (0 : Fin 2) * 1024 + 1 * q.val = win0_3.index t (1 : Fin 2) * 1024 + q.val; omega
    | ⟨1, _⟩ => show win0_1.index t (1 : Fin 2) * 64 + 1 * k.val = k.val; omega
  · intro q
    show V m c main_v5 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega

/-- An index of the output is in point t's block iff each coordinate is in the block's range on its axis. -/
theorem mem_blk (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- The blocks tile the output: entry (r, s) lies in the block of the point with block index (r / 1024, s / 1024). -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The output array after the run is the whole-array function of the argument arrays. -/
theorem final (c : Dev nD) :
    (dats m 0 c).arrAt 3 cfg0.N
      = tiled (m ((c : Thread nD τ).loc main_arg0)) (m ((c : Thread nD τ).loc main_arg1)) :=
  (dats m 0 c).arrAt_eq_of_cover 3 _ (fun t _ => flushed_eq m c t) cover

/-- The tiled program's run: every weakly fair execution terminates with the output at  tiled x y  of the argument
    arrays, which end unchanged. -/
theorem run : θ_run defs (onTc (τ := τ) (main (F := Ideal))) ⟨m, fun _ => 0, ρ⟩ fun r => ∀ c : Dev nD,
      r.2.mem ((c : Thread nD τ).loc main_v6)
        = tiled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf

end
-- ==== Proof.RbfReference.lean ====
/-
  The whole-array program read at one entry.  Its result at index (b, a) depends on row b of the first argument and
  row a of the second only: the two squared norms are sums over the 64 coordinates of those rows, broadcast along
  the other axis, and the product is the contraction of the two rows.  So the entry is the whole-array arrangement
  of the expansion of the squared distance applied to those two rows.
-/
import proofs.«113830_j65481071407813_2_alg».proof.Proof.Gen.ReferenceIdeal.Read
import proofs.«113830_j65481071407813_2_alg».proof.Proof.RbfAlgebra

noncomputable section

namespace Cert.Rbf

open Cert.ReferenceIdeal Cert.ReferenceIdeal.Read Idealize.ShloMosaic Idealize.ShloMosaic.ValueIdx

/-- Entry (b, a) of the whole-array program's result is the whole-array arrangement on row b of x and row a of y. -/
theorem reference_entry (x y : (⟨S8192x64, .f32⟩ : BufTy).Contents (Elt Ideal)) (b a : Fin 8192) :
    val_main_v17 (F := Ideal) x y (ix2 b a)
      = wholeEntry (fun k : Fin 64 => x (ix2 b k)) (fun k : Fin 64 => y (ix2 a k)) := by
  have e1 : ∀ k : Fin 64, idx_main_v1 (idx_main_v5 (idx_main_v7 (ix2 b a))) k = ix2 b k := fun k =>
    funext fun d => Fin.ext (by match d with | ⟨0, _⟩ => rfl | ⟨1, _⟩ => rfl)
  have e3 : ∀ k : Fin 64, idx_main_v3 (idx_main_v6 (idx_main_v8 (ix2 b a))) k = ix2 a k := fun k =>
    funext fun d => Fin.ext (by match d with | ⟨0, _⟩ => rfl | ⟨1, _⟩ => rfl)
  have el : ∀ k : Fin 64, lidx_main_v4 (ix2 b a) k = ix2 b k := fun k =>
    funext fun d => Fin.ext (by match d with | ⟨0, _⟩ => rfl | ⟨1, _⟩ => rfl)
  have er : ∀ k : Fin 64, ridx_main_v4 (ix2 b a) k = ix2 a k := fun k =>
    funext fun d => Fin.ext (by match d with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply,
    val_main_v1_apply, val_main_cst_apply, val_main_v8_apply, val_main_v6_apply, val_main_v3_apply,
    val_main_cst_0_apply]
  simp only [val_main_v0_apply, val_main_v2_apply, e1, e3, el, er, Ideal.hostUnary_exp_def, Ideal.mulf_def,
    Ideal.maximumf_def, Ideal.subf_def, Ideal.addf_def, Ideal.ofBits_def]
  rfl

end Cert.Rbf

end
-- ==== Proof.RbfBridge.lean ====
/-
  The two programs compute one array.  At entry (b, a) the whole-array program gives the whole-array arrangement on
  row b of x and row a of y, the tiled program the tiled arrangement on the same two rows; on rows of real numbers
  the two arrangements agree.  So when every entry of x and y is a real number the two output arrays are equal.
-/
import proofs.«113830_j65481071407813_2_alg».proof.Proof.RbfReference
import proofs.«113830_j65481071407813_2_alg».proof.Proof.RbfPoint

noncomputable section

namespace Cert.Rbf

open Idealize.ShloMosaic Idealize.ShloMosaic.ValueIdx

/-- On arrays of real numbers the whole-array program's result is the tiled program's output function. -/
theorem reference_eq_tiled (x y : FVec Ideal Cert.KernelIdeal.S8192x64 .f32)
    (hx : ∀ i, ∃ r : ℝ, x i = (r : EReal)) (hy : ∀ i, ∃ r : ℝ, y i = (r : EReal)) :
    Cert.ReferenceIdeal.Read.val_main_v17 (F := Ideal) x y = tiled x y := by
  funext i
  obtain ⟨b, a, rfl⟩ : ∃ (b a : Fin 8192), i = ix2 b a :=
    ⟨(i 0 : Fin 8192), (i 1 : Fin 8192), eq_ix2 (n0 := 8192) (n1 := 8192) i⟩
  rw [reference_entry, tiled_ix2]
  unfold tiledAt
  choose xr hxr using hx
  choose yr hyr using hy
  simp only [hxr, hyr]
  exact (tiledEntry_eq_wholeEntry (fun k : Fin 64 => xr (ix2 b k)) (fun k : Fin 64 => yr (ix2 a k))).symm

end Cert.Rbf

end
-- ==== Proof.RbfFinite.lean ====
/-
  Finiteness of the inputs, read off the precondition.  The precondition computes, for each of the two arrays, the
  conjunction over all entries of  |v| < +infinity,  and asks that both conjunctions hold.  On the extended reals
  |v| = max v (-v), and  max v (-v) < +infinity  fails exactly at the two infinities; so the precondition says that
  every entry of both arrays is a real number.
-/
import proofs.«113830_j65481071407813_2_alg».proof.Proof.Gen.Pre_finite_inputs
import Idealize.ShloMosaic.Lib.ReduceAll
import Idealize.ShloMosaic.Lib.ValueIdx
import Idealize.ShloMosaic.PureOps.Ideal.Laws

noncomputable section

namespace Cert.Rbf

open Idealize.ShloMosaic Idealize.ShloMosaic.ValueIdx

instance : Subsingleton Cert.Pre_finite_inputs.S_.Idx := ⟨fun _ _ => funext fun d => d.elim0⟩

/-- The pattern 0x7F800000 denotes plus infinity. -/
theorem ofBits_inf : Ideal.ofBits .f32 0x7F800000#32 = ⊤ := by simp [Ideal.ofBits, Ideal.ieee]

/-- An extended real whose absolute value is below plus infinity is a real number. -/
theorem real_of_abs_lt (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

/-- Under the precondition every entry of both argument arrays is a real number. -/
theorem real_of_pre (x y : FVec Ideal Cert.Pre_finite_inputs.S8192x64 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  exact ⟨fun i => real_of_abs_lt _ (Host.reduce_andi_all _ _ _ _ _ hx i),
    fun i => real_of_abs_lt _ (Host.reduce_andi_all _ _ _ _ _ hy i)⟩

end Cert.Rbf

end
-- ==== Proof.lean ====
/-
  The radial basis function kernel  K[b, a] = exp (-|x_b - y_a|^2)  of two arrays of 8192 rows of 64 coordinates, computed
  by a program tiled in 8 x 8 blocks of 1024 x 1024 entries and by a whole-array program, both through the expansion
  |x - y|^2 = |x|^2 + |y|^2 - 2 x.y :

    tiled        exp (min ((Σ_k (2 x[b,k]) y[a,k] - 1 * Σ_k x[b,k]^2) - 1 * (0 + Σ_k y[a,k]^2)) 0)
    whole-array  exp (-1 * max (((0 + Σ_k x[b,k]^2) + (0 + Σ_k y[a,k]^2)) - 2 * Σ_k x[b,k] y[a,k]) 0)

  The tiled program's output array after its run is one function  tiled x y  of the argument arrays: each grid point
  writes the block of that function it is responsible for, and the 64 blocks tile the output (Proof/RbfArray, over the
  per-point lemma Proof/RbfPoint, the body read at an entry Proof/RbfPayload, and the row of squared norms of y that is
  prepared before the grid Proof/RbfHostNorm).  The whole-array program's result read at an entry is the second
  arrangement on the same two rows (Proof/RbfReference).  The two arrangements agree on rows of real numbers
  (Proof/RbfAlgebra: distributivity of 2 over the sum, and  min a 0 = - max (-a) 0), and the precondition says every
  entry of both arrays is a real number (Proof/RbfFinite); so the two arrays are equal (Proof/RbfBridge).
  Each program's run terminates without fault and leaves its arguments unchanged; the tiled program's text is read at
  the extended reals unchanged, so nothing is owed for its idealization.
-/
import proofs.«113830_j65481071407813_2_alg».proof.Defs
import proofs.«113830_j65481071407813_2_alg».proof.Proof.Gen.Kernel
import proofs.«113830_j65481071407813_2_alg».proof.Proof.Gen.Kernel.Skeleton
import proofs.«113830_j65481071407813_2_alg».proof.Proof.Gen.Kernel.Launch
import proofs.«113830_j65481071407813_2_alg».proof.Proof.Gen.Kernel.Points
import proofs.«113830_j65481071407813_2_alg».proof.Proof.Gen.Kernel.Frame
import proofs.«113830_j65481071407813_2_alg».proof.Proof.Gen.KernelIdeal
import proofs.«113830_j65481071407813_2_alg».proof.Proof.Gen.KernelIdeal.Skeleton
import proofs.«113830_j65481071407813_2_alg».proof.Proof.Gen.KernelIdeal.Launch
import proofs.«113830_j65481071407813_2_alg».proof.Proof.Gen.KernelIdeal.Points
import proofs.«113830_j65481071407813_2_alg».proof.Proof.Gen.KernelIdeal.Frame
import proofs.«113830_j65481071407813_2_alg».proof.Proof.Gen.ReferenceIdeal
import proofs.«113830_j65481071407813_2_alg».proof.Proof.Gen.Pre_finite_inputs
import proofs.«113830_j65481071407813_2_alg».proof.Proof.Gen.KernelIdeal.Value
import proofs.«113830_j65481071407813_2_alg».proof.Proof.Gen.ReferenceIdeal.Run
import proofs.«113830_j65481071407813_2_alg».proof.Proof.Gen.ReferenceIdeal.Read
import proofs.«113830_j65481071407813_2_alg».proof.Proof.RbfArray
import proofs.«113830_j65481071407813_2_alg».proof.Proof.RbfBridge
import proofs.«113830_j65481071407813_2_alg».proof.Proof.RbfFinite
import Idealize.ShloMosaic.Adequacy
import Idealize.ShloMosaic.Init

noncomputable section

namespace Cert.Proof

open Idealize.ShloMosaic Idealize.SL.Sem

/-- The tiled program, read at machine words, runs and leaves its arguments unchanged. -/
theorem frame_kernel : Cert.frame_Kernel := fun m ρ _ => Cert.Kernel.Gen.frame m ρ

/-- The tiled program, read at the extended reals, runs and leaves its arguments unchanged. -/
theorem frame_kernelIdeal : Cert.frame_KernelIdeal := fun m ρ _ => Cert.KernelIdeal.Gen.frame m ρ

/-- The whole-array program runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the tiled program was rewritten when it was read at the extended reals. -/
theorem preserves : Cert.preserves_Kernel_KernelIdeal := trivial

/-- From memories agreeing on the arguments, with every entry of the arguments a real number, both programs end with
    the array  tiled x y. -/
theorem algebraic : Cert.algebraic_KernelIdeal_ReferenceIdeal := by
  intro m ρ m' ρ' hpre hagree
  refine ⟨fun c => Cert.Rbf.tiled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.Rbf.real_of_pre _ _ (hpre c)
  rw [Cert.ReferenceIdeal.Read.val_main_v17_eq, (hagree c).1, (hagree c).2]
  exact Cert.Rbf.reference_eq_tiled _ _ hx hy

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
